-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x16x16 : Shape := ⟨4, ![128, 256, 16, 16]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩

class Facts : Prop where
  bcast_S_S128x256x16x16 : S_.BroadcastsInDim S128x256x16x16 (![] : Fin 0 → Fin S128x256x16x16.rank)
  reducesTo_S128x256x16x16_S_d0_1_2_3 : S128x256x16x16.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S128x256x16x16 .f32) (main_arg1 : FVec F S16x256 .f32) (main_arg2 : FVec F S16 .f32) (main_arg3 : FVec F S256x16 .f32) (main_arg4 : FVec F S256 .f32) : IVec S_ 1 :=
  let main_v0 : FVec F S128x256x16x16 .f32 := Host.absf main_arg0
  let main_cst : FVec F S_ .f32 := constant S_ .f32 0x7F800000#32
  let main_v1 : FVec F S128x256x16x16 .f32 := broadcastInDim S128x256x16x16 ![] bcast_S_S128x256x16x16 main_cst
  let main_v2 : IVec S128x256x16x16 1 := cmpf .olt main_v0 main_v1
  let main_c : IVec S_ 1 := constantI S_ 1 1#1
  let main_v3 : IVec S_ 1 := (fun x v => Host.reduce IntOp.andi x v reducesTo_S128x256x16x16_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_v13 main_v16
-- ==== Kernel.lean ====
abbrev S128x256x16x16 : Shape := ⟨4, ![128, 256, 16, 16]⟩
abbrev S16x256 : Shape := ⟨2, ![16, 256]⟩
abbrev S16 : Shape := ⟨1, ![16]⟩
abbrev S256x16 : Shape := ⟨2, ![256, 16]⟩
abbrev S256 : Shape := ⟨1, ![256]⟩
abbrev S128x16x16x256 : Shape := ⟨4, ![128, 16, 16, 256]⟩
abbrev S1x16 : Shape := ⟨2, ![1, 16]⟩
abbrev S1x256 : Shape := ⟨2, ![1, 256]⟩
abbrev S32x16x16x256 : Shape := ⟨4, ![32, 16, 16, 256]⟩
abbrev S32x16x256 : Shape := ⟨3, ![32, 16, 256]⟩
abbrev S32x256 : Shape := ⟨2, ![32, 256]⟩
abbrev S32x16 : Shape := ⟨2, ![32, 16]⟩
abbrev S32x1x1x256 : Shape := ⟨4, ![32, 1, 1, 256]⟩

abbrev nBuf : Space → Nat
  | .hbm => 11
  | .vmem => 8
  | .smem => 0
  | _ => 0

abbrev bufTy : (tb : Table) → Fin (tcTables nBuf tb) → BufTy
  | .hbm, ⟨0, _⟩ => ⟨S128x256x16x16, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S128x16x16x256, .f32⟩
  | .hbm, ⟨6, _⟩ => ⟨S1x16, .f32⟩
  | .hbm, ⟨7, _⟩ => ⟨S16x256, .f32⟩
  | .hbm, ⟨8, _⟩ => ⟨S1x256, .f32⟩
  | .hbm, ⟨9, _⟩ => ⟨S128x16x16x256, .f32⟩
  | .hbm, ⟨10, _⟩ => ⟨S128x256x16x16, .f32⟩
  | .local _ .vmem, ⟨0, _⟩ => ⟨S32x16x16x256, .f32⟩
  | .local _ .vmem, ⟨1, _⟩ => ⟨S32x16x16x256, .f32⟩
  | .local _ .vmem, ⟨2, _⟩ => ⟨S16x256, .f32⟩
  | .local _ .vmem, ⟨3, _⟩ => ⟨S1x16, .f32⟩
  | .local _ .vmem, ⟨4, _⟩ => ⟨S16x256, .f32⟩
  | .local _ .vmem, ⟨5, _⟩ => ⟨S1x256, .f32⟩
  | .local _ .vmem, ⟨6, _⟩ => ⟨S32x16x16x256, .f32⟩
  | .local _ .vmem, ⟨7, _⟩ => ⟨S32x16x16x256, .f32⟩
  | _, _ => ⟨S128x256x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S32x16x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x16x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x256x16x16_S128x16x16x256_0_2_3_1 : S128x256x16x16.Transposes [0, 2, 3, 1] S128x16x16x256
  shapeCasts_S16_S1x16 : S16.ShapeCasts S1x16
  transposes_S256x16_S16x256_1_0 : S256x16.Transposes [1, 0] S16x256
  shapeCasts_S256_S1x256 : S256.ShapeCasts S1x256
  inb_S32x16x16x256_S32x16x16x256_0_0_0_0 : ∀ a, (![0, 0, 0, 0] : Fin 4 → Nat) a + S32x16x16x256.size a ≤ S32x16x16x256.size a
  h_S32x16x16x256 : 0 < S32x16x16x256.numel
  shapeCasts_S32x16x16x256_S32x16x16x256 : S32x16x16x256.ShapeCasts S32x16x16x256
  reduces_S32x16x16x256_S32x16x256 : S32x16x16x256.Reduces [1] S32x16x256
  reduces_S32x16x256_S32x256 : S32x16x256.Reduces [1] S32x256
  inb_S16x256_S16x256_0_0 : ∀ a, (![0, 0] : Fin 2 → Nat) a + S16x256.size a ≤ S16x256.size a
  h_S16x256 : 0 < S16x256.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S32x16 : S1x16.Broadcasts S32x16
  shapeCasts_S16x256_S16x256 : S16x256.ShapeCasts S16x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S32x256 : S1x256.Broadcasts S32x256
  shapeCasts_S32x256_S32x1x1x256 : S32x256.ShapeCasts S32x1x1x256
  broadcasts_S32x1x1x256_S32x16x16x256 : S32x1x1x256.Broadcasts S32x16x16x256
  transposes_S128x16x16x256_S128x256x16x16_0_3_1_2 : S128x16x16x256.Transposes [0, 3, 1, 2] S128x256x16x16
  dot_S32x256_S16x256_S32x16_1_1_0_0_n_n_wf : DotDims.WF S32x256 S16x256 S32x16 [1] [1] [0] [0] [] []
  dot_S32x16_S16x256_S32x256_1_0_0_1_n_n_wf : DotDims.WF S32x16 S16x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16x16x256.size a ≤ S128x16x16x256.size a
  hwx0_0 : ∀ i : grid0.Coords, EltTy.bits .f32 = 32 ∨ (Rect.block (s := S128x16x16x256) S32x16x16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S16x256.size a
  hwx0_3 : ∀ i : grid0.Coords, EltTy.bits .f32 = 32 ∨ (Rect.block (s := S16x256) S16x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x16x16x256.size a ≤ S128x16x16x256.size a
  hwx0_5 : ∀ i : grid0.Coords, EltTy.bits .f32 = 32 ∨ (Rect.block (s := S128x16x16x256) S32x16x16x256.size (cc0_transform_5 i) (hinb0_5 i)).WholeWords (EltTy.packing .f32)

variable [Facts₀]

def dot_S32x256_S16x256_S32x16_1_1_0_0_n_n : DotDims S32x256 S16x256 S32x16 where
  lhsContracting := [1]
  rhsContracting := [1]
  lhsNonContracting := [0]
  rhsNonContracting := [0]
  lhsBatch := []
  rhsBatch := []
  wf := dot_S32x256_S16x256_S32x16_1_1_0_0_n_n_wf
def dot_S32x16_S16x256_S32x256_1_0_0_1_n_n : DotDims S32x16 S16x256 S32x256 where
  lhsContracting := [1]
  rhsContracting := [0]
  lhsNonContracting := [0]
  rhsNonContracting := [1]
  lhsBatch := []
  rhsBatch := []
  wf := dot_S32x16_S16x256_S32x256_1_0_0_1_n_n_wf

abbrev win0_0 : Pipeline.Window sig grid0 :=
  Pipeline.Window.ofSpec (Memref.whole main_v0) S32x16x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S32x16x16x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x256x16x16 : Shape := ⟨4, ![128, 256, 16, 16]⟩
abbrev S16x256 : Shape := ⟨2, ![16, 256]⟩
abbrev S16 : Shape := ⟨1, ![16]⟩
abbrev S256x16 : Shape := ⟨2, ![256, 16]⟩
abbrev S256 : Shape := ⟨1, ![256]⟩
abbrev S1x16 : Shape := ⟨2, ![1, 16]⟩
abbrev S1x256 : Shape := ⟨2, ![1, 256]⟩
abbrev S128x256x256 : Shape := ⟨3, ![128, 256, 256]⟩
abbrev S32x256x256 : Shape := ⟨3, ![32, 256, 256]⟩
abbrev S32x256 : Shape := ⟨2, ![32, 256]⟩
abbrev S32x16 : Shape := ⟨2, ![32, 16]⟩
abbrev S32x256x1 : Shape := ⟨3, ![32, 256, 1]⟩

abbrev nBuf : Space → Nat
  | .hbm => 12
  | .vmem => 8
  | .smem => 0
  | _ => 0

abbrev bufTy : (tb : Table) → Fin (tcTables nBuf tb) → BufTy
  | .hbm, ⟨0, _⟩ => ⟨S128x256x16x16, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S256x16, .f32⟩
  | .hbm, ⟨6, _⟩ => ⟨S16x256, .f32⟩
  | .hbm, ⟨7, _⟩ => ⟨S1x16, .f32⟩
  | .hbm, ⟨8, _⟩ => ⟨S1x256, .f32⟩
  | .hbm, ⟨9, _⟩ => ⟨S128x256x256, .f32⟩
  | .hbm, ⟨10, _⟩ => ⟨S128x256x256, .f32⟩
  | .hbm, ⟨11, _⟩ => ⟨S128x256x16x16, .f32⟩
  | .local _ .vmem, ⟨0, _⟩ => ⟨S32x256x256, .f32⟩
  | .local _ .vmem, ⟨1, _⟩ => ⟨S32x256x256, .f32⟩
  | .local _ .vmem, ⟨2, _⟩ => ⟨S256x16, .f32⟩
  | .local _ .vmem, ⟨3, _⟩ => ⟨S1x16, .f32⟩
  | .local _ .vmem, ⟨4, _⟩ => ⟨S16x256, .f32⟩
  | .local _ .vmem, ⟨5, _⟩ => ⟨S1x256, .f32⟩
  | .local _ .vmem, ⟨6, _⟩ => ⟨S32x256x256, .f32⟩
  | .local _ .vmem, ⟨7, _⟩ => ⟨S32x256x256, .f32⟩
  | _, _ => ⟨S128x256x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S16x256_S256x16_1_0 : S16x256.Transposes [1, 0] S256x16
  transposes_S256x16_S16x256_1_0 : S256x16.Transposes [1, 0] S16x256
  shapeCasts_S16_S1x16 : S16.ShapeCasts S1x16
  shapeCasts_S256_S1x256 : S256.ShapeCasts S1x256
  shapeCasts_S128x256x16x16_S128x256x256 : S128x256x16x16.ShapeCasts S128x256x256
  inb_S32x256x256_S32x256x256_0_0_0 : ∀ a, (![0, 0, 0] : Fin 3 → Nat) a + S32x256x256.size a ≤ S32x256x256.size a
  h_S32x256x256 : 0 < S32x256x256.numel
  shapeCasts_S32x256x256_S32x256x256 : S32x256x256.ShapeCasts S32x256x256
  reduces_S32x256x256_S32x256 : S32x256x256.Reduces [2] S32x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S32x16 : S1x16.Broadcasts S32x16
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S32x256 : S1x256.Broadcasts S32x256
  shapeCasts_S32x256_S32x256x1 : S32x256.ShapeCasts S32x256x1
  broadcasts_S32x256x1_S32x256x256 : S32x256x1.Broadcasts S32x256x256
  shapeCasts_S128x256x256_S128x256x16x16 : S128x256x256.ShapeCasts S128x256x16x16
  dot_S32x256_S256x16_S32x16_1_0_0_1_n_n_wf : DotDims.WF S32x256 S256x16 S32x16 [1] [0] [0] [1] [] []
  dot_S32x16_S16x256_S32x256_1_0_0_1_n_n_wf : DotDims.WF S32x16 S16x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x256.size a ≤ S128x256x256.size a
  hwx0_0 : ∀ i : grid0.Coords, EltTy.bits .f32 = 32 ∨ (Rect.block (s := S128x256x256) S32x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S16x256.size a
  hwx0_3 : ∀ i : grid0.Coords, EltTy.bits .f32 = 32 ∨ (Rect.block (s := S16x256) S16x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x256x256.size a ≤ S128x256x256.size a
  hwx0_5 : ∀ i : grid0.Coords, EltTy.bits .f32 = 32 ∨ (Rect.block (s := S128x256x256) S32x256x256.size (cc0_transform_5 i) (hinb0_5 i)).WholeWords (EltTy.packing .f32)

variable [Facts₀]

def dot_S32x256_S256x16_S32x16_1_0_0_1_n_n : DotDims S32x256 S256x16 S32x16 where
  lhsContracting := [1]
  rhsContracting := [0]
  lhsNonContracting := [0]
  rhsNonContracting := [1]
  lhsBatch := []
  rhsBatch := []
  wf := dot_S32x256_S256x16_S32x16_1_0_0_1_n_n_wf
def dot_S32x16_S16x256_S32x256_1_0_0_1_n_n : DotDims S32x16 S16x256 S32x256 where
  lhsContracting := [1]
  rhsContracting := [0]
  lhsNonContracting := [0]
  rhsNonContracting := [1]
  lhsBatch := []
  rhsBatch := []
  wf := dot_S32x16_S16x256_S32x256_1_0_0_1_n_n_wf

abbrev win0_0 : Pipeline.Window sig grid0 :=
  Pipeline.Window.ofSpec (Memref.whole main_v4) S32x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S32x256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.LibDense.lean ====
/-
  A matrix product whose one contracted axis is the left operand's columns and the right operand's rows, accumulated
  into the zero matrix and read at an entry: the entry `(p, j)` is the sum over `k` of `lhs (p, k) * rhs (k, j)`, for
  any extents and any dimension record that lists the axes in that way (no batch axis, rows of the left and columns of
  the right kept). Then the same facts about a whole matrix seen BY ITS ROWS — a product, a bias row added to every row, a
  change of float format, a rectifier — each as an equation between functions of the row number, so that a chain of dense
  layers is rewritten from the inside out with no binder in the way. Last, the pointwise transcendentals a gated cell
  uses, read at an index.
-/
import Idealize.ShloMosaic.Lib.Pipeline.Value
import Idealize.ShloMosaic.Lib.ValueIdx
import Idealize.ShloMosaic.Lib.ValueLayout
import Idealize.ShloMosaic.PureOps.Ideal.Laws

namespace Cert.LibDense

open Idealize.ShloMosaic Idealize.ShloMosaic.ValueIdx

/-- The product of an `[M, K]` and a `[K, N]` matrix into the zero accumulator, at `(p, j)`: the sum over the shared
    axis of the products of row `p` of the left with column `j` of the right. -/
theorem matmul2d_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision)
    (lhs : FVec Ideal ⟨2, ![M, K]⟩ φ₁) (rhs : FVec Ideal ⟨2, ![K, N]⟩ φ₂) (p : Fin M) (j : Fin N) :
    matmul D prec lhs rhs (constant ⟨2, ![M, N]⟩ .f32 0x00000000#32) (ix2 p j)
      = ∑ k : Fin K, lhs (ix2 p k) * rhs (ix2 k j) := by
  obtain ⟨lc, rc, ln, rn, lb, rb, wf⟩ := D
  dsimp only at hlc hrc hln hrn hlb hrb
  subst hlc hrc hln hrn hlb hrb
  set D : DotDims ⟨2, ![M, K]⟩ ⟨2, ![K, N]⟩ ⟨2, ![M, N]⟩ := ⟨[1], [0], [0], [1], [], [], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p j) ((contrEquiv1 D K rfl rfl).symm k) = ix2 p k := funext fun a => Fin.ext (by
    match a with
    | ⟨0, _⟩ =>
      show (D.lhsIdx (ix2 p j) _ 0).val = p.val
      unfold DotDims.lhsIdx
      rw [dif_neg (show ¬(0 : Fin (⟨2, ![M, K]⟩ : Shape).rank) ∈ D.lhsBatch from List.not_mem_nil),
        dif_pos (show (0 : Fin (⟨2, ![M, K]⟩ : Shape).rank) ∈ D.lhsNonContracting from List.mem_singleton.mpr rfl)]
      rfl
    | ⟨1, _⟩ => exact (D.lhsIdx_val_of_single rfl (ix2 p j) _).trans hk)
  have er : D.rhsIdx (ix2 p j) ((contrEquiv1 D K rfl rfl).symm k) = ix2 k j := funext fun a => Fin.ext (by
    match a with
    | ⟨0, _⟩ => exact (D.rhsIdx_val_of_single rfl (ix2 p j) _).trans hk
    | ⟨1, _⟩ =>
      show (D.rhsIdx (ix2 p j) _ 1).val = j.val
      unfold DotDims.rhsIdx
      rw [dif_neg (show ¬(1 : Fin (⟨2, ![K, N]⟩ : Shape).rank) ∈ D.rhsBatch from List.not_mem_nil),
        dif_pos (show (1 : Fin (⟨2, ![K, N]⟩ : Shape).rank) ∈ D.rhsNonContracting from List.mem_singleton.mpr rfl)]
      rfl)
  rw [el, er]

/-! ## A matrix by its rows -/

/-- Row `p` of a matrix, as a function of the column. -/
def rows {M N : ℕ} {α : Type} (A : (⟨2, ![M, N]⟩ : Shape).Idx → α) (p : Fin M) (j : Fin N) : α := A (ix2 p j)

/-- A `[K, J]` array read as weights from input `k` to output `j`: the array holds the weights transposed. -/
def matT {K J : ℕ} (W : (⟨2, ![K, J]⟩ : Shape).Idx → EReal) (j : Fin J) (k : Fin K) : EReal := W (ix2 k j)

/-- A `[1, J]` array read as the bias of output `j`. -/
def rowv {J : ℕ} (B : (⟨2, ![1, J]⟩ : Shape).Idx → EReal) (j : Fin J) : EReal := B (ix2 (0 : Fin 1) j)

section Rows
variable {M K N : ℕ} {φ φ₁ φ₂ : FTy}

/-- A cast of a matrix to its own shape has the same rows. -/
theorem rows_shapeCast_self {α : Type} (A : (⟨2, ![M, N]⟩ : Shape).Idx → α)
    (h : (⟨2, ![M, N]⟩ : Shape).ShapeCasts ⟨2, ![M, N]⟩) : rows (shapeCast ⟨2, ![M, N]⟩ A h) = rows A := by
  rw [shapeCast_self]

/-- A change of float format keeps every entry. -/
theorem rows_truncf {ψ : FTy} (A : FVec Ideal ⟨2, ![M, N]⟩ φ) (h : ψ.bits < φ.bits) :
    rows (truncf ψ A h : FVec Ideal ⟨2, ![M, N]⟩ ψ) = rows A := rfl

/-- The entrywise maximum with a constant. -/
theorem rows_maximumf_splat (A : FVec Ideal ⟨2, ![M, N]⟩ φ) (z : Ideal φ) :
    rows (maximumf A (broadcast ⟨2, ![M, N]⟩ z)) = fun p j => max (rows A p j) z := rfl

/-- The rows of a product into the zero accumulator: row `p` is the weighted sum of the right operand's rows. -/
theorem rows_matmul (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (lhs : FVec Ideal ⟨2, ![M, K]⟩ φ₁) (rhs : FVec Ideal ⟨2, ![K, N]⟩ φ₂) :
    rows (matmul D prec lhs rhs (constant ⟨2, ![M, N]⟩ .f32 0x00000000#32))
      = fun p j => ∑ k : Fin K, rows lhs p k * rows rhs k j :=
  funext fun p => funext fun j => matmul2d_apply D hlc hrc hln hrn hlb hrb prec lhs rhs p j

/-- One row added to every row. -/
theorem rows_addf_rowBias (A : FVec Ideal ⟨2, ![M, N]⟩ φ) (b : FVec Ideal ⟨2, ![1, N]⟩ φ)
    (hb : (⟨2, ![1, N]⟩ : Shape).Broadcasts ⟨2, ![M, N]⟩) :
    rows (addf A (broadcastTo ⟨2, ![M, N]⟩ b hb)) = fun p j => rows A p j + rows b (0 : Fin 1) j := by
  funext p j
  show A (ix2 p j) + broadcastTo ⟨2, ![M, N]⟩ b hb (ix2 p j) = _
  rw [broadcastTo_1b_ab_apply]
  rfl

end Rows

/-! ## Pointwise transcendentals at an index -/

variable {s : Shape} {φ : FTy}

theorem logistic_apply (x : FVec Ideal s φ) (i : s.Idx) : logistic x i = Ideal.logistic (x i) := rfl
theorem tanh_apply (x : FVec Ideal s φ) (i : s.Idx) : tanh x i = Ideal.tanh (x i) := rfl
theorem exp_apply (x : FVec Ideal s φ) (i : s.Idx) : exp x i = Ideal.exp (x i) := rfl
theorem log1p_apply (x : FVec Ideal s φ) (i : s.Idx) : log1p x i = Ideal.log1p (x i) := rfl
theorem absf_apply (x : FVec Ideal s φ) (i : s.Idx) : absf x i = max (x i) (-(x i)) := rfl

end Cert.LibDense
-- ==== Proof.LibDotNT.lean ====
/-
  The product of an `[M, K]` matrix with the TRANSPOSE of an `[N, K]` matrix — a `tpu.matmul` that contracts the last
  axis of both operands, no batch axis — into the zero accumulator, read at `(p, j)` at the ideal values: the sum over
  the shared axis of the products of row `p` of the left operand with row `j` of the right. (A similarity matrix
  `q kᵀ` of two blocks of row vectors is this product.)
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibDotNT

open Idealize.ShloMosaic Idealize.ShloMosaic.ValueIdx

/-- Rows against rows: `(A Bᵀ)(p, j) = ∑ k, A (p, k) * B (j, k)`. -/
theorem matmulNT_apply {M K N : ℕ} {φ₁ φ₂ : FTy}
    (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision)
    (lhs : FVec Ideal ⟨2, ![M, K]⟩ φ₁) (rhs : FVec Ideal ⟨2, ![N, K]⟩ φ₂) (p : Fin M) (j : Fin N) :
    matmul D prec lhs rhs (constant ⟨2, ![M, N]⟩ .f32 0x00000000#32) (ix2 p j)
      = ∑ k : Fin K, lhs (ix2 p k) * rhs (ix2 j k) := by
  obtain ⟨lc, rc, ln, rn, lb, rb, wf⟩ := D
  dsimp only at hlc hrc hln hrn hlb hrb
  subst hlc hrc hln hrn hlb hrb
  set D : DotDims ⟨2, ![M, K]⟩ ⟨2, ![N, K]⟩ ⟨2, ![M, N]⟩ := ⟨[1], [1], [0], [0], [], [], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p j) ((contrEquiv1 D K rfl rfl).symm k) = ix2 p k := funext fun a => Fin.ext (by
    match a with
    | ⟨0, _⟩ =>
      show (D.lhsIdx (ix2 p j) _ 0).val = p.val
      unfold DotDims.lhsIdx
      rw [dif_neg (show ¬(0 : Fin (⟨2, ![M, K]⟩ : Shape).rank) ∈ D.lhsBatch from List.not_mem_nil),
        dif_pos (show (0 : Fin (⟨2, ![M, K]⟩ : Shape).rank) ∈ D.lhsNonContracting from List.mem_singleton.mpr rfl)]
      rfl
    | ⟨1, _⟩ => exact (D.lhsIdx_val_of_single rfl (ix2 p j) _).trans hk)
  have er : D.rhsIdx (ix2 p j) ((contrEquiv1 D K rfl rfl).symm k) = ix2 j k := funext fun a => Fin.ext (by
    match a with
    | ⟨0, _⟩ =>
      show (D.rhsIdx (ix2 p j) _ 0).val = j.val
      unfold DotDims.rhsIdx
      rw [dif_neg (show ¬(0 : Fin (⟨2, ![N, K]⟩ : Shape).rank) ∈ D.rhsBatch from List.not_mem_nil),
        dif_pos (show (0 : Fin (⟨2, ![N, K]⟩ : Shape).rank) ∈ D.rhsNonContracting from List.mem_singleton.mpr rfl)]
      rfl
    | ⟨1, _⟩ => exact (D.rhsIdx_val_of_single rfl (ix2 p j) _).trans hk)
  rw [el, er]

end Cert.LibDotNT

end
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.LibRank4.lean ====
/-
  Arrays of rank 4 read at an index written by coordinates, for any extents: the sum over the second axis; a matrix
  `[a, c]` given two unit axes in the middle and then spread over them; the two transposes that carry the second axis
  to the last place and back; the reshape that merges the last two axes into one and the one that splits them again; and
  a sum over a merged axis as the double sum over the two axes it was made of.
-/
import Idealize.ShloMosaic.Lib.Pipeline.Value
import Idealize.ShloMosaic.Lib.ValueIdx
import Idealize.ShloMosaic.Lib.ValueLayout
import Idealize.ShloMosaic.PureOps.Ideal.Laws

namespace Cert.LibRank4

open Idealize.ShloMosaic Idealize.ShloMosaic.ValueIdx

variable {α : Type}

/-! ## Unit axes in the middle -/

/-- An `[a, c]` array cast to `[a, 1, 1, c]` reads, at `(p, u, v, k)`, the operand at `(p, k)`. -/
theorem shapeCast_ac_a11c_apply {a c : ℕ} (x : (⟨2, ![a, c]⟩ : Shape).Idx → α)
    (h : (⟨2, ![a, c]⟩ : Shape).ShapeCasts ⟨4, ![a, 1, 1, c]⟩) (p : Fin a) (u v : Fin 1) (k : Fin c) :
    shapeCast ⟨4, ![a, 1, 1, c]⟩ x h (ix4 p u v k) = x (ix2 p k) :=
  shapeCast_apply x h _ _ (by
    have hu : u.val = 0 := by omega
    have hv : v.val = 0 := by omega
    rw [Shape.rowMajor_val_two, Shape.rowMajor_val_four]
    show p.val * c + k.val = ((p.val * 1 + u.val) * 1 + v.val) * c + k.val
    simp only [hu, hv, Nat.mul_one, Nat.add_zero])

/-- An `[a, 1, 1, c]` array broadcast to `[a, b, d, c]` reads, at `(p, q, r, k)`, the operand at `(p, 0, 0, k)`. -/
theorem broadcastTo_a11c_abdc_apply {a b d c : ℕ} (v : (⟨4, ![a, 1, 1, c]⟩ : Shape).Idx → α)
    (h : (⟨4, ![a, 1, 1, c]⟩ : Shape).Broadcasts ⟨4, ![a, b, d, c]⟩) (p : Fin a) (q : Fin b) (r : Fin d) (k : Fin c) :
    broadcastTo ⟨4, ![a, b, d, c]⟩ v h (ix4 p q r k) = v (ix4 p (0 : Fin 1) (0 : Fin 1) k) := by
  refine broadcastTo_apply v h (ix4 p q r k) (ix4 p (0 : Fin 1) (0 : Fin 1) k) fun ax => ?_
  match ax with
  | ⟨0, _⟩ =>
    show p.val = if a = 1 then 0 else p.val
    split
    · have := p.isLt; omega
    · rfl
  | ⟨1, _⟩ => rfl
  | ⟨2, _⟩ => rfl
  | ⟨3, _⟩ =>
    show k.val = if c = 1 then 0 else k.val
    split
    · have := k.isLt; omega
    · rfl

/-! ## The second axis carried last, and back -/

/-- The transpose by `[0, 2, 3, 1]` of an `[a, b, c, d]` array reads, at `(p, r, s, q)`, the operand at `(p, q, r, s)`. -/
theorem transpose_0231_apply {a b c d : ℕ} (x : (⟨4, ![a, b, c, d]⟩ : Shape).Idx → α)
    (h : (⟨4, ![a, b, c, d]⟩ : Shape).Transposes [0, 2, 3, 1] ⟨4, ![a, c, d, b]⟩) (p : Fin a) (r : Fin c) (s : Fin d) (q : Fin b) :
    transpose ⟨4, ![a, c, d, b]⟩ [0, 2, 3, 1] x h (ix4 p r s q) = x (ix4 p q r s) :=
  transpose_apply _ x h _ _ fun e => match e with | ⟨0, _⟩ => rfl | ⟨1, _⟩ => rfl | ⟨2, _⟩ => rfl | ⟨3, _⟩ => rfl

/-- The transpose by `[0, 3, 1, 2]` of an `[a, c, d, b]` array reads, at `(p, q, r, s)`, the operand at `(p, r, s, q)`. -/
theorem transpose_0312_apply {a c d b : ℕ} (x : (⟨4, ![a, c, d, b]⟩ : Shape).Idx → α)
    (h : (⟨4, ![a, c, d, b]⟩ : Shape).Transposes [0, 3, 1, 2] ⟨4, ![a, b, c, d]⟩) (p : Fin a) (q : Fin b) (r : Fin c) (s : Fin d) :
    transpose ⟨4, ![a, b, c, d]⟩ [0, 3, 1, 2] x h (ix4 p q r s) = x (ix4 p r s q) :=
  transpose_apply _ x h _ _ fun e => match e with | ⟨0, _⟩ => rfl | ⟨1, _⟩ => rfl | ⟨2, _⟩ => rfl | ⟨3, _⟩ => rfl

/-! ## The last two axes merged, and split again -/

/-- Position `r * d + s` of the merged axis is inside it. -/
theorem merged_lt {c d : ℕ} (r : Fin c) (s : Fin d) : r.val * d + s.val < c * d :=
  calc r.val * d + s.val < r.val * d + d := Nat.add_lt_add_left s.isLt _
    _ = (r.val + 1) * d := (Nat.succ_mul _ _).symm
    _ ≤ c * d := Nat.mul_le_mul_right d r.isLt

/-- An `[a, b, c, d]` array reshaped to `[a, b, n]`, `n = c * d`, reads at `(p, q, t)` with `t = r * d + s` the operand at
    `(p, q, r, s)`. -/
theorem shapeCast_abcd_abn_apply {a b c d n : ℕ} (x : (⟨4, ![a, b, c, d]⟩ : Shape).Idx → α)
    (h : (⟨4, ![a, b, c, d]⟩ : Shape).ShapeCasts ⟨3, ![a, b, n]⟩) (hn : n = c * d)
    (p : Fin a) (q : Fin b) (r : Fin c) (s : Fin d) (t : Fin n) (ht : t.val = r.val * d + s.val) :
    shapeCast ⟨3, ![a, b, n]⟩ x h (ix3 p q t) = x (ix4 p q r s) :=
  shapeCast_apply x h _ _ (by
    rw [Shape.rowMajor_val_four, Shape.rowMajor_val_three]
    show ((p.val * b + q.val) * c + r.val) * d + s.val = (p.val * b + q.val) * n + t.val
    rw [ht, hn]; ring)

/-- An `[a, b, n]` array, `n = c * d`, reshaped to `[a, b, c, d]` reads at `(p, q, r, s)` the operand at `(p, q, t)` with
    `t = r * d + s`. -/
theorem shapeCast_abn_abcd_apply {a b c d n : ℕ} (x : (⟨3, ![a, b, n]⟩ : Shape).Idx → α)
    (h : (⟨3, ![a, b, n]⟩ : Shape).ShapeCasts ⟨4, ![a, b, c, d]⟩) (hn : n = c * d)
    (p : Fin a) (q : Fin b) (r : Fin c) (s : Fin d) (t : Fin n) (ht : t.val = r.val * d + s.val) :
    shapeCast ⟨4, ![a, b, c, d]⟩ x h (ix4 p q r s) = x (ix3 p q t) :=
  shapeCast_apply x h _ _ (by
    rw [Shape.rowMajor_val_four, Shape.rowMajor_val_three]
    show (p.val * b + q.val) * n + t.val = ((p.val * b + q.val) * c + r.val) * d + s.val
    rw [ht, hn]; ring)

/-- A sum over the merged axis is the double sum over the two axes, in either order of summation (here the inner axis
    outermost). -/
theorem sum_merged {M : Type*} [AddCommMonoid M] {c d : ℕ} (g : Fin (c * d) → M) :
    ∑ t : Fin (c * d), g t = ∑ s : Fin d, ∑ r : Fin c, g ⟨r.val * d + s.val, merged_lt r s⟩ := by
  rw [← Equiv.sum_comp finProdFinEquiv g, Fintype.sum_prod_type, Finset.sum_comm]
  refine Finset.sum_congr rfl fun s _ => Finset.sum_congr rfl fun r _ => congrArg g (Fin.ext ?_)
  show s.val + d * r.val = r.val * d + s.val
  rw [Nat.mul_comm, Nat.add_comm]

/-! ## A sum over the second axis, at the ideal values -/

theorem lift_ax1 {a b c d : ℕ} (h : (⟨4, ![a, b, c, d]⟩ : Shape).Reduces [1] (⟨3, ![a, c, d]⟩ : Shape)) (p : Fin a) (r : Fin c)
    (k : Fin d) (q : Fin ((⟨4, ![a, b, c, d]⟩ : Shape).size 1)) :
    h.lift (ix3 p r k) q = ix4 p (⟨q.val, q.isLt⟩ : Fin b) r k := by
  funext ax; apply Fin.ext
  fin_cases ax <;> rfl

/-- The sum over the second axis of an `[a, b, c, d]` array, at `(p, r, k)`: the sum over `q` of the entries `(p, q, r, k)`. -/
theorem sum_ax1_apply {a b c d : ℕ} {φ : FTy} (src : FVec Ideal ⟨4, ![a, b, c, d]⟩ φ) (acc : BitVec φ.bits)
    (h : (⟨4, ![a, b, c, d]⟩ : Shape).Reduces [1] (⟨3, ![a, c, d]⟩ : Shape)) (hφ : FKind.Formats φ)
    (hacc : acc = FKind.add.neutral φ hφ) (p : Fin a) (r : Fin c) (k : Fin d) :
    multiReduction .add [1] ⟨3, ![a, c, d]⟩ src acc h hφ hacc (ix3 p r k) = ∑ q : Fin b, src (ix4 p q r k) :=
  (Ideal.multiReduction_add_single src acc h hφ hacc (ix3 p r k)).trans
    (Finset.sum_congr rfl fun q _ => congrArg src (lift_ax1 h p r k q))

end Cert.LibRank4
-- ==== Proof.SeSpec.lean ====
/-
  Squeeze and excitation of an array `x[N, c, h, w]` over the extended reals, as one function of the five argument
  arrays. Each image `N` and channel `k` is POOLED: the sum of its `16 × 16` entries times `2⁻⁸`. The pooled row of an
  image goes through two dense layers — `w1` with bias `b1` and a clamp at zero, then `w2` with bias `b2` — and the
  logistic function, which gives one GATE per image and channel; the result is every entry of `x` times the gate of its
  image and channel.

  The one law joining the two programs: the product with the word for `2⁻⁸` is the quotient by the word for `256`, on
  every extended real, the infinities too (so no input need be finite); the rest is the order of a finite sum.
-/
import Idealize.ShloMosaic.PureOps.Ideal
import Idealize.ShloMosaic.Lib.ValueIdx

noncomputable section

namespace Cert.SeSpec

open Idealize.ShloMosaic Idealize.ShloMosaic.ValueIdx

/-- The word `0x43800000` denotes `256`. -/
theorem word_256 : Ideal.ofBits .f32 0x43800000#32 = ((256 : ℝ) : EReal) := by
  simp [Ideal.ofBits, Ideal.ieee, -EReal.coe_mul]; norm_num

/-- The word `0x3B800000` denotes `1 / 256`. -/
theorem word_inv256 : Ideal.ofBits .f32 0x3B800000#32 = ((1 / 256 : ℝ) : EReal) := by
  simp [Ideal.ofBits, Ideal.ieee, -EReal.coe_mul]; norm_num

/-- Times `2⁻⁸` is divided by `256`, for every extended real. -/
theorem mul_inv256_eq_div (x : EReal) :
    x * Ideal.ofBits .f32 0x3B800000#32 = Ideal.div x (Ideal.ofBits .f32 0x43800000#32) := by
  rw [word_256, word_inv256, Ideal.div_coe (by norm_num : (256 : ℝ) ≠ 0)]

/-- The gate of channel `c` from an image's pooled row: two dense layers, the first clamped at zero, then the logistic
    function. `w1 j k` is the weight from channel `k` to hidden unit `j`, `w2 c j` from hidden unit `j` to channel `c`. -/
def gate (pooled : Fin 256 → EReal) (w1 : Fin 16 → Fin 256 → EReal) (b1 : Fin 16 → EReal)
    (w2 : Fin 256 → Fin 16 → EReal) (b2 : Fin 256 → EReal) (c : Fin 256) : EReal :=
  Ideal.logistic ((∑ j : Fin 16, max ((∑ k : Fin 256, pooled k * w1 j k) + b1 j) (Ideal.ofBits .f32 0x00000000#32) * w2 c j) + b2 c)

/-- The pooled value of image `N`, channel `k`: the sum over the image's columns of the sums over its rows, times `2⁻⁸`. -/
def pooled (x : (⟨4, ![128, 256, 16, 16]⟩ : Shape).Idx → EReal) (N : Fin 128) (k : Fin 256) : EReal :=
  (∑ w : Fin 16, ∑ h : Fin 16, x (ix4 N k h w)) * Ideal.ofBits .f32 0x3B800000#32

/-- The result at image `N`, channel `k`, row `h`, column `w`: the entry times the gate of its image and channel. -/
def entry (x : (⟨4, ![128, 256, 16, 16]⟩ : Shape).Idx → EReal) (w1 : (⟨2, ![16, 256]⟩ : Shape).Idx → EReal)
    (b1 : (⟨1, ![16]⟩ : Shape).Idx → EReal) (w2 : (⟨2, ![256, 16]⟩ : Shape).Idx → EReal)
    (b2 : (⟨1, ![256]⟩ : Shape).Idx → EReal) (N : Fin 128) (k : Fin 256) (h w : Fin 16) : EReal :=
  x (ix4 N k h w) * gate (pooled x N) (fun j k => w1 (ix2 j k)) (fun j => b1 (ix1 j)) (fun c j => w2 (ix2 c j)) (fun c => b2 (ix1 c)) k

/-- The result array. -/
def out (x : (⟨4, ![128, 256, 16, 16]⟩ : Shape).Idx → EReal) (w1 : (⟨2, ![16, 256]⟩ : Shape).Idx → EReal)
    (b1 : (⟨1, ![16]⟩ : Shape).Idx → EReal) (w2 : (⟨2, ![256, 16]⟩ : Shape).Idx → EReal)
    (b2 : (⟨1, ![256]⟩ : Shape).Idx → EReal) : (⟨4, ![128, 256, 16, 16]⟩ : Shape).Idx → EReal := fun i =>
  entry x w1 b1 w2 b2 (i 0) (i 1) (i 2) (i 3)

theorem out_ix4 (x : (⟨4, ![128, 256, 16, 16]⟩ : Shape).Idx → EReal) (w1 : (⟨2, ![16, 256]⟩ : Shape).Idx → EReal)
    (b1 : (⟨1, ![16]⟩ : Shape).Idx → EReal) (w2 : (⟨2, ![256, 16]⟩ : Shape).Idx → EReal)
    (b2 : (⟨1, ![256]⟩ : Shape).Idx → EReal) (N : Fin 128) (k : Fin 256) (h w : Fin 16) :
    out x w1 b1 w2 b2 (ix4 N k h w) = entry x w1 b1 w2 b2 N k h w := rfl

end Cert.SeSpec

end
-- ==== Proof.KernelBlock.lean ====
/-
  One block of the kernel in channel-last layout, read at an entry. The body loads a block `x0[n, h, w, c]` of 32 images
  and four small arrays, and stores `x0` times a gate that depends on the image `n` and the channel `c` only. The gate
  is built from the block's pooled rows (the sum over the image's rows, then over its columns, times `2⁻⁸`) by two dense
  layers and the logistic function; here each stage is named and read at an entry as a finite sum over coordinates.
-/
import proofs.«107021_g2000302568016445_pallasbulk_773_13_alg».proof.Proof.Gen.KernelIdeal.Skeleton
import proofs.«107021_g2000302568016445_pallasbulk_773_13_alg».proof.Proof.LibDense
import proofs.«107021_g2000302568016445_pallasbulk_773_13_alg».proof.Proof.LibDotNT
import proofs.«107021_g2000302568016445_pallasbulk_773_13_alg».proof.Proof.LibKeepdims
import proofs.«107021_g2000302568016445_pallasbulk_773_13_alg».proof.Proof.LibRank4
import proofs.«107021_g2000302568016445_pallasbulk_773_13_alg».proof.Proof.SeSpec

noncomputable section

namespace Cert.KernelIdeal.SeValue

open Idealize.ShloMosaic Idealize.ShloMosaic.ValueIdx Cert.KernelIdeal Cert.KernelIdeal.Gen

variable (x0 : FVec Ideal S32x16x16x256 .f32) (v6 : FVec Ideal S16x256 .f32) (v8 : FVec Ideal S1x16 .f32)
  (v14 : FVec Ideal S16x256 .f32) (v17 : FVec Ideal S1x256 .f32)

/-- The pooled rows of the block: per image and channel, the sum over rows, then over columns, times `2⁻⁸`. -/
def pooledB : FVec Ideal S32x256 .f32 :=
  mulf (multiReduction (F := Ideal) .add [1] S32x256
      (multiReduction (F := Ideal) .add [1] S32x16x256 x0 0x00000000#32 reduces_S32x16x16x256_S32x16x256 (.inl rfl) rfl)
      0x00000000#32 reduces_S32x16x256_S32x256 (.inl rfl) rfl)
    (broadcast S32x256 (Scalar.ofBits (F := Ideal) .f32 0x3B800000#32))

theorem pooledB_apply (n : Fin 32) (k : Fin 256) :
    pooledB x0 (ix2 n k) = (∑ w : Fin 16, ∑ h : Fin 16, x0 (ix4 n h w k)) * Ideal.ofBits .f32 0x3B800000#32 := by
  unfold pooledB
  refine congrArg (fun s : EReal => s * Ideal.ofBits .f32 0x3B800000#32) ?_
  refine (LibKeepdims.sum_mid3_apply _ _ _ _ _ n k).trans ?_
  exact Finset.sum_congr rfl fun w _ => LibRank4.sum_ax1_apply _ _ _ _ _ n w k

/-- The hidden layer: the pooled rows against the rows of the first weight matrix, plus its bias, clamped at zero. -/
def hiddenB : FVec Ideal S32x16 .f32 :=
  maximumf (addf (matmul dot_S32x256_S16x256_S32x16_1_1_0_0_n_n none (pooledB x0) v6 (constant (F := Ideal) S32x16 .f32 0x00000000#32))
      (broadcastTo S32x16 v8 broadcasts_S1x16_S32x16))
    (broadcast S32x16 (Scalar.ofBits (F := Ideal) .f32 0x00000000#32))

theorem hiddenB_apply (n : Fin 32) (j : Fin 16) :
    hiddenB x0 v6 v8 (ix2 n j)
      = max ((∑ k : Fin 256, pooledB x0 (ix2 n k) * v6 (ix2 j k)) + v8 (ix2 (0 : Fin 1) j)) (Ideal.ofBits .f32 0x00000000#32) := by
  unfold hiddenB
  rw [maximumf_apply, addf_apply, broadcast_apply, broadcastTo_1b_ab_apply,
    LibDotNT.matmulNT_apply dot_S32x256_S16x256_S32x16_1_1_0_0_n_n rfl rfl rfl rfl rfl rfl]
  rfl

/-- The gates: the hidden layer against the second weight matrix, plus its bias, through the logistic function. -/
def gateB : FVec Ideal S32x256 .f32 :=
  logistic (addf (matmul dot_S32x16_S16x256_S32x256_1_0_0_1_n_n none (hiddenB x0 v6 v8) v14 (constant (F := Ideal) S32x256 .f32 0x00000000#32))
    (broadcastTo S32x256 v17 broadcasts_S1x256_S32x256))

theorem gateB_apply (n : Fin 32) (c : Fin 256) :
    gateB x0 v6 v8 v14 v17 (ix2 n c)
      = Ideal.logistic ((∑ j : Fin 16, hiddenB x0 v6 v8 (ix2 n j) * v14 (ix2 j c)) + v17 (ix2 (0 : Fin 1) c)) := by
  unfold gateB
  rw [LibDense.logistic_apply, addf_apply, broadcastTo_1b_ab_apply,
    LibDense.matmul2d_apply dot_S32x16_S16x256_S32x256_1_0_0_1_n_n rfl rfl rfl rfl rfl rfl]

/-- The stored value is the block times its gates spread over rows and columns. -/
theorem pay_eq : k0_pay1 x0 v6 v8 v14 v17
    = mulf x0 (broadcastTo S32x16x16x256 (shapeCast S32x1x1x256 (gateB x0 v6 v8 v14 v17) shapeCasts_S32x256_S32x1x1x256)
        broadcasts_S32x1x1x256_S32x16x16x256) := by
  unfold k0_pay1
  simp only [shapeCast_self]
  rfl

/-- The stored value at `(n, h, w, c)`: the entry times the gate of image `n`, channel `c`. -/
theorem pay_apply (n : Fin 32) (h w : Fin 16) (c : Fin 256) :
    k0_pay1 x0 v6 v8 v14 v17 (ix4 n h w c)
      = x0 (ix4 n h w c) * SeSpec.gate (fun k => (∑ w' : Fin 16, ∑ h' : Fin 16, x0 (ix4 n h' w' k)) * Ideal.ofBits .f32 0x3B800000#32)
          (fun j k => v6 (ix2 j k)) (fun j => v8 (ix2 (0 : Fin 1) j)) (fun c j => v14 (ix2 j c)) (fun c => v17 (ix2 (0 : Fin 1) c)) c := by
  rw [pay_eq, mulf_apply, LibRank4.broadcastTo_a11c_abdc_apply, LibRank4.shapeCast_ac_a11c_apply, gateB_apply]
  simp only [hiddenB_apply, pooledB_apply]
  rfl

/-! ## The whole array in channel-last layout -/

/-- In channel-last layout `X[N, h, w, c]`: the entry times the gate of image `N`, channel `c`, the gate built from the
    image's pooled row against `W1[j, k]`, bias `B1[0, j]`, then `W2T[j, c]`, bias `B2[0, c]`. -/
def entryNHWC (X : FVec Ideal S128x16x16x256 .f32) (W1 : FVec Ideal S16x256 .f32) (B1 : FVec Ideal S1x16 .f32)
    (W2T : FVec Ideal S16x256 .f32) (B2 : FVec Ideal S1x256 .f32) (N : Fin 128) (h w : Fin 16) (c : Fin 256) : EReal :=
  X (ix4 N h w c) * SeSpec.gate (fun k => (∑ w' : Fin 16, ∑ h' : Fin 16, X (ix4 N h' w' k)) * Ideal.ofBits .f32 0x3B800000#32)
    (fun j k => W1 (ix2 j k)) (fun j => B1 (ix2 (0 : Fin 1) j)) (fun c j => W2T (ix2 j c)) (fun c => B2 (ix2 (0 : Fin 1) c)) c

def outNHWC (X : FVec Ideal S128x16x16x256 .f32) (W1 : FVec Ideal S16x256 .f32) (B1 : FVec Ideal S1x16 .f32)
    (W2T : FVec Ideal S16x256 .f32) (B2 : FVec Ideal S1x256 .f32) : FVec Ideal S128x16x16x256 .f32 := fun i =>
  entryNHWC X W1 B1 W2T B2 (i 0) (i 1) (i 2) (i 3)

theorem outNHWC_ix4 (X : FVec Ideal S128x16x16x256 .f32) (W1 : FVec Ideal S16x256 .f32) (B1 : FVec Ideal S1x16 .f32)
    (W2T : FVec Ideal S16x256 .f32) (B2 : FVec Ideal S1x256 .f32) (N : Fin 128) (h w : Fin 16) (c : Fin 256) :
    outNHWC X W1 B1 W2T B2 (ix4 N h w c) = entryNHWC X W1 B1 W2T B2 N h w c := rfl

/-- A block of 32 images starting at image `T * 32`, with the four small arrays read whole: what the body stores at
    `(n, h, w, k)` is the array's entry at image `T * 32 + n`. An image's gate depends on that image only, so the block
    computes it from its own rows. -/
theorem block_entry (X : FVec Ideal S128x16x16x256 .f32) (W1 : FVec Ideal S16x256 .f32) (B1 : FVec Ideal S1x16 .f32)
    (W2T : FVec Ideal S16x256 .f32) (B2 : FVec Ideal S1x256 .f32) (T : ℕ)
    (hx : ∀ (n : Fin 32) (h w : Fin 16) (k : Fin 256) (hb : T * 32 + n.val < 128),
      x0 (ix4 n h w k) = X (ix4 ⟨T * 32 + n.val, hb⟩ h w k))
    (h6 : v6 = W1) (h8 : v8 = B1) (h14 : v14 = W2T) (h17 : v17 = B2)
    (n : Fin 32) (h w : Fin 16) (k : Fin 256) (hb : T * 32 + n.val < 128) :
    k0_pay1 (F := Ideal) x0 v6 v8 v14 v17 (ix4 n h w k) = entryNHWC X W1 B1 W2T B2 ⟨T * 32 + n.val, hb⟩ h w k := by
  subst h6 h8 h14 h17
  rw [pay_apply]
  unfold entryNHWC
  simp only [hx n _ _ _ hb]

/-- Carrying the channel axis last, transposing the second weight matrix and giving the biases a unit axis, computing in
    that layout, and carrying the channel axis back is the specification's result. -/
theorem nhwc_eq (x : FVec Ideal S128x256x16x16 .f32) (w1 : FVec Ideal S16x256 .f32) (b1 : FVec Ideal S16 .f32)
    (w2 : FVec Ideal S256x16 .f32) (b2 : FVec Ideal S256 .f32)
    (hT : S128x256x16x16.Transposes [0, 2, 3, 1] S128x16x16x256) (hc1 : S16.ShapeCasts S1x16)
    (hT2 : S256x16.Transposes [1, 0] S16x256) (hc2 : S256.ShapeCasts S1x256)
    (hT3 : S128x16x16x256.Transposes [0, 3, 1, 2] S128x256x16x16) :
    transpose S128x256x16x16 [0, 3, 1, 2]
        (outNHWC (transpose S128x16x16x256 [0, 2, 3, 1] x hT) w1 (shapeCast S1x16 b1 hc1) (transpose S16x256 [1, 0] w2 hT2)
          (shapeCast S1x256 b2 hc2)) hT3
      = SeSpec.out x w1 b1 w2 b2 := by
  funext i
  obtain ⟨N, k, h, w, rfl⟩ : ∃ (N : Fin 128) (k : Fin 256) (h w : Fin 16), i = ix4 N k h w := ⟨i 0, i 1, i 2, i 3, eq_ix4 i⟩
  have e0 : ∀ (N : Fin 128) (h w : Fin 16) (k : Fin 256),
      transpose S128x16x16x256 [0, 2, 3, 1] x hT (ix4 N h w k) = x (ix4 N k h w) :=
    fun N h w k => LibRank4.transpose_0231_apply x hT N h w k
  have e2 : ∀ (j : Fin 16) (c : Fin 256), transpose S16x256 [1, 0] w2 hT2 (ix2 j c) = w2 (ix2 c j) :=
    fun j c => transpose_ix2_apply w2 hT2 j c
  refine (LibRank4.transpose_0312_apply _ hT3 N k h w).trans ?_
  rw [SeSpec.out_ix4, outNHWC_ix4]
  unfold entryNHWC SeSpec.entry SeSpec.pooled
  simp only [e0, e2, shapeCast_a_1a_apply]

end Cert.KernelIdeal.SeValue

end
-- ==== Proof.KernelArray.lean ====
/-
  From blocks to the array, in the kernel's channel-last layout. The grid has four points; point `t` reads images
  `32 t … 32 t + 31` of the channel-last input, reads the four small arrays whole, and writes back the same 32 images of
  the result. The blocks tile the result's first axis, so after the run the result array is the channel-last function
  `outNHWC` of the arrays as the region finds them.
-/
import proofs.«107021_g2000302568016445_pallasbulk_773_13_alg».proof.Proof.Gen.KernelIdeal.Frame
import proofs.«107021_g2000302568016445_pallasbulk_773_13_alg».proof.Proof.KernelBlock
import Idealize.ShloMosaic.Lib.Pipeline.Value

set_option maxRecDepth 16384

noncomputable section

namespace Cert.KernelIdeal.SeValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ)

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The index maps over the grid: the input and the result move along the first axis with the point, the small arrays
    stay at block zero. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_5.index t (0 : Fin 4) = t.val ∧ win0_5.index t (1 : Fin 4) = 0 ∧ win0_5.index t (2 : Fin 4) = 0 ∧ win0_5.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The blocks the body reads -/

/-- The input block at point `t` holds images `32 t + n`. -/
theorem iblk0_apply (c : Dev nD) (t : Fin cfg0.N) (n : Fin 32) (h w : Fin 16) (k : Fin 256) (hb : t.val * 32 + n.val < 128) :
    iblk m c 0 t (ix4 n h w k) = V m c main_v0 (ix4 ⟨t.val * 32 + n.val, hb⟩ h w k) := by
  obtain ⟨e0, e1, e2, e3, -⟩ := idx_facts t
  show V m c main_v0 (((cfg0.win 0).blk t).view.emb (ix4 n h w k)) = _
  refine congrArg _ (funext fun a => Fin.ext ?_)
  match a with
  | ⟨0, _⟩ => show win0_0.index t (0 : Fin 4) * 32 + 1 * n.val = t.val * 32 + n.val; omega
  | ⟨1, _⟩ => show win0_0.index t (1 : Fin 4) * 16 + 1 * h.val = h.val; omega
  | ⟨2, _⟩ => show win0_0.index t (2 : Fin 4) * 16 + 1 * w.val = w.val; omega
  | ⟨3, _⟩ => show win0_0.index t (3 : Fin 4) * 256 + 1 * k.val = k.val; omega

/-- The first weight matrix is read whole at every point. -/
theorem iblk1_eq (c : Dev nD) (t : Fin cfg0.N) : (iblk m c 1 t : S16x256.Idx → EReal) = V m c main_arg1 := by
  obtain ⟨-, -, -, -, -, -, -, -, e0, e1, -⟩ := idx_facts t
  funext y
  show V m c main_arg1 (((cfg0.win 1).blk t).view.emb y) = _
  refine congrArg _ (funext fun a => Fin.ext ?_)
  match a with
  | ⟨0, _⟩ => show win0_1.index t (0 : Fin 2) * 16 + 1 * (y 0).val = (y 0).val; omega
  | ⟨1, _⟩ => show win0_1.index t (1 : Fin 2) * 256 + 1 * (y 1).val = (y 1).val; omega

/-- The first bias row is read whole at every point. -/
theorem iblk2_eq (c : Dev nD) (t : Fin cfg0.N) : (iblk m c 2 t : S1x16.Idx → EReal) = V m c main_v1 := by
  obtain ⟨-, -, -, -, -, -, -, -, -, -, e0, e1, -⟩ := idx_facts t
  funext y
  show V m c main_v1 (((cfg0.win 2).blk t).view.emb y) = _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 16 + 1 * (y 1).val = (y 1).val; omega

/-- The transposed second weight matrix is read whole at every point. -/
theorem iblk3_eq (c : Dev nD) (t : Fin cfg0.N) : (iblk m c 3 t : S16x256.Idx → EReal) = V m c main_v2 := by
  obtain ⟨-, -, -, -, -, -, -, -, -, -, -, -, e0, e1, -⟩ := idx_facts t
  funext y
  show V m c main_v2 (((cfg0.win 3).blk t).view.emb y) = _
  refine congrArg _ (funext fun a => Fin.ext ?_)
  match a with
  | ⟨0, _⟩ => show win0_3.index t (0 : Fin 2) * 16 + 1 * (y 0).val = (y 0).val; omega
  | ⟨1, _⟩ => show win0_3.index t (1 : Fin 2) * 256 + 1 * (y 1).val = (y 1).val; omega

/-- The second bias row is read whole at every point. -/
theorem iblk4_eq (c : Dev nD) (t : Fin cfg0.N) : (iblk m c 4 t : S1x256.Idx → EReal) = V m c main_v3 := by
  obtain ⟨-, -, -, -, -, -, -, -, -, -, -, -, -, -, e0, e1⟩ := idx_facts t
  funext y
  show V m c main_v3 (((cfg0.win 4).blk t).view.emb y) = _
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-! ## What a point writes back -/

/-- The channel-last result as a function of the arrays the region finds. -/
abbrev resultNHWC (c : Dev nD) : FVec Ideal S128x16x16x256 .f32 :=
  outNHWC (V m c main_v0) (V m c main_arg1) (V m c main_v1) (V m c main_v2) (V m c main_v3)

/-- Point `t` writes back block `t` of the channel-last result. -/
theorem flushed_eq (c : Dev nD) (t : Fin cfg0.N) :
    (dats m 0 c).flushed 5 t = ((cfg0.win 5).blk t).view.read (Elt Ideal) (resultNHWC m c) := by
  show (cfg0.win 5).cut (grid0.coords t) ((dats m 0 c).after 5 t) = _
  rw [after0_5]
  unfold out0_5
  rw [View.canon_unit_zero hz4]
  simp only [View.ld_unit_zero (S := S32x16x16x256) hz4, View.ld_unit_zero (S := S16x256) hz2,
    View.ld_unit_zero (S := S1x16) hz2, View.ld_unit_zero (S := S1x256) hz2]
  have ht : t.val < 4 := lt_of_lt_of_eq t.isLt N_0
  obtain ⟨-, -, -, -, e0, e1, e2, e3, -⟩ := idx_facts t
  show (k0_pay1 (iblk m c 0 t) (iblk m c 1 t) (iblk m c 2 t) (iblk m c 3 t) (iblk m c 4 t) : S32x16x16x256.Idx → EReal)
    = fun y => resultNHWC m c (((cfg0.win 5).blk t).view.emb y)
  funext y
  obtain ⟨n, h, w, k, rfl⟩ : ∃ (n : Fin 32) (h w : Fin 16) (k : Fin 256), y = ix4 n h w k := ⟨y 0, y 1, y 2, y 3, eq_ix4 y⟩
  have hb : t.val * 32 + n.val < 128 := by have := n.isLt; omega
  have he : ((cfg0.win 5).blk t).view.emb (ix4 n h w k) = ix4 (⟨t.val * 32 + n.val, hb⟩ : Fin 128) h w k := by
    refine funext fun a => Fin.ext ?_
    match a with
    | ⟨0, _⟩ => show win0_5.index t (0 : Fin 4) * 32 + 1 * n.val = t.val * 32 + n.val; omega
    | ⟨1, _⟩ => show win0_5.index t (1 : Fin 4) * 16 + 1 * h.val = h.val; omega
    | ⟨2, _⟩ => show win0_5.index t (2 : Fin 4) * 16 + 1 * w.val = w.val; omega
    | ⟨3, _⟩ => show win0_5.index t (3 : Fin 4) * 256 + 1 * k.val = k.val; omega
  refine (block_entry (iblk m c 0 t) (iblk m c 1 t) (iblk m c 2 t) (iblk m c 3 t) (iblk m c 4 t)
    (V m c main_v0) (V m c main_arg1) (V m c main_v1) (V m c main_v2) (V m c main_v3) t.val
    (fun n h w k hb => iblk0_apply m c t n h w k hb) (iblk1_eq m c t) (iblk2_eq m c t) (iblk3_eq m c t) (iblk4_eq m c t)
    n h w k hb).trans ?_
  show _ = resultNHWC m c (((cfg0.win 5).blk t).view.emb (ix4 n h w k))
  rw [he]
  rfl

/-! ## The cover -/

/-- An index of the result is in point `t`'s block iff each coordinate is in the block's range on its axis. -/
theorem mem_blk (t : Fin cfg0.N) (i : S128x16x16x256.Idx) :
    i ∈ ((cfg0.win 5).blk t).view.set ↔ ∀ a : Fin 4, win0_5.index t a * S32x16x16x256.size a ≤ (i a).val
      ∧ (i a).val < win0_5.index t a * S32x16x16x256.size a + S32x16x16x256.size a := by
  show i ∈ ((View.whole main_v4).slice (win0_5.rect t)).set ↔ _
  rw [View.set_slice_whole, Rect.mem_set_unit]
  exact Iff.rfl

/-- Image `N` is in the block of point `N / 32`. -/
theorem cover (i : S128x16x16x256.Idx) :
    ∃ t : Fin cfg0.N, (cfg0.win 5).flush t = true ∧ i ∈ ((cfg0.win 5).blk t).view.set := by
  have hi0 : (i 0).val < 128 := (i 0).isLt
  have hi1 : (i 1).val < 16 := (i 1).isLt
  have hi2 : (i 2).val < 16 := (i 2).isLt
  have hi3 : (i 3).val < 256 := (i 3).isLt
  obtain ⟨t, ht⟩ : ∃ t : Fin cfg0.N, t.val = (i 0).val / 32 :=
    ⟨⟨(i 0).val / 32, by rw [show cfg0.N = 4 from N_0]; omega⟩, rfl⟩
  obtain ⟨-, -, -, -, e0, e1, e2, e3, -⟩ := idx_facts t
  refine ⟨t, flush0_5 t, ?_⟩
  rw [mem_blk]
  intro a
  match a with
  | ⟨0, _⟩ => show win0_5.index t (0 : Fin 4) * 32 ≤ (i 0).val ∧ (i 0).val < win0_5.index t (0 : Fin 4) * 32 + 32; omega
  | ⟨1, _⟩ => show win0_5.index t (1 : Fin 4) * 16 ≤ (i 1).val ∧ (i 1).val < win0_5.index t (1 : Fin 4) * 16 + 16; omega
  | ⟨2, _⟩ => show win0_5.index t (2 : Fin 4) * 16 ≤ (i 2).val ∧ (i 2).val < win0_5.index t (2 : Fin 4) * 16 + 16; omega
  | ⟨3, _⟩ => show win0_5.index t (3 : Fin 4) * 256 ≤ (i 3).val ∧ (i 3).val < win0_5.index t (3 : Fin 4) * 256 + 256; omega

/-- The result array of the region after the run: the channel-last result. -/
theorem final (c : Dev nD) : (dats m 0 c).arrAt 5 cfg0.N = resultNHWC m c :=
  (dats m 0 c).arrAt_eq_of_cover 5 (resultNHWC m c) (fun t _ => flushed_eq m c t) (cover)

end Cert.KernelIdeal.SeValue

end
-- ==== Proof.KernelRun.lean ====
/-
  The kernel's whole run, read as a value. Before the region the host carries the input's channel axis last, transposes
  the second weight matrix and gives each bias a leading unit axis; the region leaves the channel-last result; after it
  the host carries the channel axis back. Read at an entry, the three steps compose to the specification's result of the
  five argument arrays, which the run leaves unchanged.
-/
import proofs.«107021_g2000302568016445_pallasbulk_773_13_alg».proof.Proof.Gen.KernelIdeal.Frame
import proofs.«107021_g2000302568016445_pallasbulk_773_13_alg».proof.Proof.KernelArray
import Idealize.ShloMosaic.Lib.StableHlo.Run

set_option maxRecDepth 16384

noncomputable section

namespace Cert.KernelIdeal.SeValue

open Idealize.ShloMosaic Idealize.ShloMosaic.TcCoe Idealize.ShloMosaic.ValueIdx Idealize.SL.Sem
open Idealize.ShloMosaic.Pipeline (Dat Cfg Window)
open Idealize.ShloMosaic.StableHlo
open Cert.KernelIdeal Cert.KernelIdeal.Gen

variable (m : (ℓ : Loc nD τ sig) → Buf (Elt Ideal) ℓ) (ρ : Dev nD → PrngReg)

/-! ## What the region finds -/

/-- The input with its channel axis carried last. -/
theorem V_v0 (c : Dev nD) : (V m c main_v0 : S128x16x16x256.Idx → EReal)
    = transpose S128x16x16x256 [0, 2, 3, 1] (m ((c : Thread nD τ).loc main_arg0)) transposes_S128x256x16x16_S128x16x16x256_0_2_3_1 := by
  show StableHlo.after hostOps0 (fun b => m (c, b)) (Proc.devRef .tc main_v0) = _
  after_results

/-- The first bias as one row. -/
theorem V_v1 (c : Dev nD) : (V m c main_v1 : S1x16.Idx → EReal)
    = shapeCast S1x16 (m ((c : Thread nD τ).loc main_arg2)) shapeCasts_S16_S1x16 := by
  show StableHlo.after hostOps0 (fun b => m (c, b)) (Proc.devRef .tc main_v1) = _
  after_results; rfl

/-- The second weight matrix transposed. -/
theorem V_v2 (c : Dev nD) : (V m c main_v2 : S16x256.Idx → EReal)
    = transpose S16x256 [1, 0] (m ((c : Thread nD τ).loc main_arg3)) transposes_S256x16_S16x256_1_0 := by
  show StableHlo.after hostOps0 (fun b => m (c, b)) (Proc.devRef .tc main_v2) = _
  after_results

/-- The second bias as one row. -/
theorem V_v3 (c : Dev nD) : (V m c main_v3 : S1x256.Idx → EReal)
    = shapeCast S1x256 (m ((c : Thread nD τ).loc main_arg4)) shapeCasts_S256_S1x256 := by
  show StableHlo.after hostOps0 (fun b => m (c, b)) (Proc.devRef .tc main_v3) = _
  after_results; rfl

/-! ## The result -/

/-- The program's result buffer after the host's last line: the specification's result of the argument arrays. -/
theorem tail_eq (c : Dev nD) :
    Pipeline.afterTail₀ cfgs (dats m) 0 (V0 m) [hostOps1] c main_v5
      = SeSpec.out (m ((c : Thread nD τ).loc main_arg0)) (m ((c : Thread nD τ).loc main_arg1))
          (m ((c : Thread nD τ).loc main_arg2)) (m ((c : Thread nD τ).loc main_arg3)) (m ((c : Thread nD τ).loc main_arg4)) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4)
      = resultNHWC m c :=
    (Pipeline.withArrays_arr spec0 launch0.win.arr_inj c _ _ 5).trans (final m c)
  refine (congrArg (fun A : S128x16x16x256.Idx → EReal =>
    transpose S128x256x16x16 [0, 3, 1, 2] A transposes_S128x16x16x256_S128x256x16x16_0_3_1_2) hw).trans ?_
  unfold resultNHWC
  rw [V_v0, V_v1, V_v2, V_v3, V_main_arg1]
  exact nhwc_eq _ _ _ _ _ _ _ _ _ _

/-- Every weakly fair execution of the kernel's program terminates with the result buffer at the specification's result
    of the argument arrays and those arrays unchanged. -/
theorem run : θ_run defs (onTc (τ := τ) (main (F := Ideal))) ⟨m, fun _ => 0, ρ⟩ (fun r => ∀ c : Dev nD,
      r.2.mem ((c.tc : Thread nD τ).loc main_v5)
        = SeSpec.out (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.SeValue

end
-- ==== Proof.ReferenceBlock.lean ====
/-
  One block of the reference in its flat layout, read at an entry. The body loads a block `x0[n, c, s]` of 32 images, each
  channel's `16 × 16` entries laid out along one axis of 256, and four small arrays, and stores `x0` times a gate that
  depends on the image `n` and the channel `c` only. The pooled rows are the sums along the flat axis divided by `256`;
  the two dense layers and the logistic function are the kernel's, with the first weight matrix held transposed.
  Then the whole array in that layout, and the reshapes around it against the specification: a sum along the flat axis
  is the double sum over rows and columns, and the quotient by `256` is the product with `2⁻⁸`.
-/
import proofs.«107021_g2000302568016445_pallasbulk_773_13_alg».proof.Proof.Gen.ReferenceIdeal.Skeleton
import proofs.«107021_g2000302568016445_pallasbulk_773_13_alg».proof.Proof.LibDense
import proofs.«107021_g2000302568016445_pallasbulk_773_13_alg».proof.Proof.LibKeepdims
import proofs.«107021_g2000302568016445_pallasbulk_773_13_alg».proof.Proof.LibRank4
import proofs.«107021_g2000302568016445_pallasbulk_773_13_alg».proof.Proof.SeSpec

noncomputable section

namespace Cert.ReferenceIdeal.SeValue

open Idealize.ShloMosaic Idealize.ShloMosaic.ValueIdx Cert.ReferenceIdeal Cert.ReferenceIdeal.Gen

variable (x0 : FVec Ideal S32x256x256 .f32) (v5 : FVec Ideal S256x16 .f32) (v8 : FVec Ideal S1x16 .f32)
  (v14 : FVec Ideal S16x256 .f32) (v17 : FVec Ideal S1x256 .f32)

/-- The pooled rows of the block: per image and channel, the sum along the flat axis, divided by `256`. -/
def pooledB : FVec Ideal S32x256 .f32 :=
  divf (multiReduction (F := Ideal) .add [2] S32x256 x0 0x00000000#32 reduces_S32x256x256_S32x256 (.inl rfl) rfl)
    (broadcast S32x256 (Scalar.ofBits (F := Ideal) .f32 0x43800000#32))

theorem pooledB_apply (n : Fin 32) (k : Fin 256) :
    pooledB x0 (ix2 n k) = Ideal.div (∑ s : Fin 256, x0 (ix3 n k s)) (Ideal.ofBits .f32 0x43800000#32) := by
  unfold pooledB
  refine congrArg (fun s : EReal => Ideal.div s (Ideal.ofBits .f32 0x43800000#32)) ?_
  exact LibKeepdims.sum_last3_apply _ _ _ _ _ n k

/-- The hidden layer: the pooled rows against the columns of the transposed first weight matrix, plus its bias, clamped
    at zero. -/
def hiddenB : FVec Ideal S32x16 .f32 :=
  maximumf (addf (matmul dot_S32x256_S256x16_S32x16_1_0_0_1_n_n none (pooledB x0) v5 (constant (F := Ideal) S32x16 .f32 0x00000000#32))
      (broadcastTo S32x16 v8 broadcasts_S1x16_S32x16))
    (broadcast S32x16 (Scalar.ofBits (F := Ideal) .f32 0x00000000#32))

theorem hiddenB_apply (n : Fin 32) (j : Fin 16) :
    hiddenB x0 v5 v8 (ix2 n j)
      = max ((∑ k : Fin 256, pooledB x0 (ix2 n k) * v5 (ix2 k j)) + v8 (ix2 (0 : Fin 1) j)) (Ideal.ofBits .f32 0x00000000#32) := by
  unfold hiddenB
  rw [maximumf_apply, addf_apply, broadcast_apply, broadcastTo_1b_ab_apply,
    LibDense.matmul2d_apply dot_S32x256_S256x16_S32x16_1_0_0_1_n_n rfl rfl rfl rfl rfl rfl]
  rfl

/-- The gates: the hidden layer against the transposed second weight matrix, plus its bias, through the logistic
    function. -/
def gateB : FVec Ideal S32x256 .f32 :=
  logistic (addf (matmul dot_S32x16_S16x256_S32x256_1_0_0_1_n_n none (hiddenB x0 v5 v8) v14 (constant (F := Ideal) S32x256 .f32 0x00000000#32))
    (broadcastTo S32x256 v17 broadcasts_S1x256_S32x256))

theorem gateB_apply (n : Fin 32) (c : Fin 256) :
    gateB x0 v5 v8 v14 v17 (ix2 n c)
      = Ideal.logistic ((∑ j : Fin 16, hiddenB x0 v5 v8 (ix2 n j) * v14 (ix2 j c)) + v17 (ix2 (0 : Fin 1) c)) := by
  unfold gateB
  rw [LibDense.logistic_apply, addf_apply, broadcastTo_1b_ab_apply,
    LibDense.matmul2d_apply dot_S32x16_S16x256_S32x256_1_0_0_1_n_n rfl rfl rfl rfl rfl rfl]

/-- The stored value is the block times its gates spread along the flat axis. -/
theorem pay_eq : k0_pay1 x0 v5 v8 v14 v17
    = mulf x0 (broadcastTo S32x256x256 (shapeCast S32x256x1 (gateB x0 v5 v8 v14 v17) shapeCasts_S32x256_S32x256x1)
        broadcasts_S32x256x1_S32x256x256) := by
  unfold k0_pay1
  simp only [shapeCast_self]
  rfl

/-- The stored value at `(n, c, s)`: the entry times the gate of image `n`, channel `c`. -/
theorem pay_apply (n : Fin 32) (c s : Fin 256) :
    k0_pay1 x0 v5 v8 v14 v17 (ix3 n c s)
      = x0 (ix3 n c s) * SeSpec.gate (fun k => Ideal.div (∑ s' : Fin 256, x0 (ix3 n k s')) (Ideal.ofBits .f32 0x43800000#32))
          (fun j k => v5 (ix2 k j)) (fun j => v8 (ix2 (0 : Fin 1) j)) (fun c j => v14 (ix2 j c)) (fun c => v17 (ix2 (0 : Fin 1) c)) c := by
  rw [pay_eq, mulf_apply, LibKeepdims.broadcastTo_ab1_abc_apply, LibKeepdims.shapeCast_ab_ab1_apply, gateB_apply]
  simp only [hiddenB_apply, pooledB_apply]
  rfl

/-! ## The whole array in the flat layout -/

/-- In the flat layout `X[N, c, s]`: the entry times the gate of image `N`, channel `c`, the gate built from the image's
    pooled row against `W1T[k, j]`, bias `B1[0, j]`, then `W2T[j, c]`, bias `B2[0, c]`. -/
def entryFlat (X : FVec Ideal S128x256x256 .f32) (W1T : FVec Ideal S256x16 .f32) (B1 : FVec Ideal S1x16 .f32)
    (W2T : FVec Ideal S16x256 .f32) (B2 : FVec Ideal S1x256 .f32) (N : Fin 128) (c s : Fin 256) : EReal :=
  X (ix3 N c s) * SeSpec.gate (fun k => Ideal.div (∑ s' : Fin 256, X (ix3 N k s')) (Ideal.ofBits .f32 0x43800000#32))
    (fun j k => W1T (ix2 k j)) (fun j => B1 (ix2 (0 : Fin 1) j)) (fun c j => W2T (ix2 j c)) (fun c => B2 (ix2 (0 : Fin 1) c)) c

def outFlat (X : FVec Ideal S128x256x256 .f32) (W1T : FVec Ideal S256x16 .f32) (B1 : FVec Ideal S1x16 .f32)
    (W2T : FVec Ideal S16x256 .f32) (B2 : FVec Ideal S1x256 .f32) : FVec Ideal S128x256x256 .f32 := fun i =>
  entryFlat X W1T B1 W2T B2 (i 0) (i 1) (i 2)

theorem outFlat_ix3 (X : FVec Ideal S128x256x256 .f32) (W1T : FVec Ideal S256x16 .f32) (B1 : FVec Ideal S1x16 .f32)
    (W2T : FVec Ideal S16x256 .f32) (B2 : FVec Ideal S1x256 .f32) (N : Fin 128) (c s : Fin 256) :
    outFlat X W1T B1 W2T B2 (ix3 N c s) = entryFlat X W1T B1 W2T B2 N c s := rfl

/-- A block of 32 images starting at image `T * 32`, with the four small arrays read whole: what the body stores at
    `(n, c, s)` is the array's entry at image `T * 32 + n`. -/
theorem block_entry (X : FVec Ideal S128x256x256 .f32) (W1T : FVec Ideal S256x16 .f32) (B1 : FVec Ideal S1x16 .f32)
    (W2T : FVec Ideal S16x256 .f32) (B2 : FVec Ideal S1x256 .f32) (T : ℕ)
    (hx : ∀ (n : Fin 32) (k s : Fin 256) (hb : T * 32 + n.val < 128), x0 (ix3 n k s) = X (ix3 ⟨T * 32 + n.val, hb⟩ k s))
    (h5 : v5 = W1T) (h8 : v8 = B1) (h14 : v14 = W2T) (h17 : v17 = B2)
    (n : Fin 32) (k s : Fin 256) (hb : T * 32 + n.val < 128) :
    k0_pay1 (F := Ideal) x0 v5 v8 v14 v17 (ix3 n k s) = entryFlat X W1T B1 W2T B2 ⟨T * 32 + n.val, hb⟩ k s := by
  subst h5 h8 h14 h17
  rw [pay_apply]
  unfold entryFlat
  simp only [hx n _ _ hb]

/-- Merging each image's rows and columns into one axis, transposing both weight matrices and giving the biases a unit
    axis, computing in that layout, and splitting the flat axis again is the specification's result. -/
theorem flat_eq (x : FVec Ideal S128x256x16x16 .f32) (w1 : FVec Ideal S16x256 .f32) (b1 : FVec Ideal S16 .f32)
    (w2 : FVec Ideal S256x16 .f32) (b2 : FVec Ideal S256 .f32)
    (hr : S128x256x16x16.ShapeCasts S128x256x256) (hT1 : S16x256.Transposes [1, 0] S256x16) (hc1 : S16.ShapeCasts S1x16)
    (hT2 : S256x16.Transposes [1, 0] S16x256) (hc2 : S256.ShapeCasts S1x256)
    (hr' : S128x256x256.ShapeCasts S128x256x16x16) :
    shapeCast S128x256x16x16
        (outFlat (shapeCast S128x256x256 x hr) (transpose S256x16 [1, 0] w1 hT1) (shapeCast S1x16 b1 hc1)
          (transpose S16x256 [1, 0] w2 hT2) (shapeCast S1x256 b2 hc2)) hr'
      = SeSpec.out x w1 b1 w2 b2 := by
  funext i
  obtain ⟨N, k, h, w, rfl⟩ : ∃ (N : Fin 128) (k : Fin 256) (h w : Fin 16), i = ix4 N k h w := ⟨i 0, i 1, i 2, i 3, eq_ix4 i⟩
  have ex : ∀ (k' : Fin 256) (h' w' : Fin 16),
      shapeCast S128x256x256 x hr (ix3 N k' (⟨h'.val * 16 + w'.val, LibRank4.merged_lt h' w'⟩ : Fin 256)) = x (ix4 N k' h' w') :=
    fun k' h' w' => LibRank4.shapeCast_abcd_abn_apply x hr rfl N k' h' w' _ rfl
  have hsum : ∀ k' : Fin 256, (∑ s' : Fin 256, shapeCast S128x256x256 x hr (ix3 N k' s'))
      = ∑ w' : Fin 16, ∑ h' : Fin 16, x (ix4 N k' h' w') := fun k' =>
    (LibRank4.sum_merged (c := 16) (d := 16) (fun s' : Fin (16 * 16) => shapeCast S128x256x256 x hr (ix3 N k' s'))).trans
      (Finset.sum_congr rfl fun w' _ => Finset.sum_congr rfl fun h' _ => ex k' h' w')
  have e1 : ∀ (k' : Fin 256) (j : Fin 16), transpose S256x16 [1, 0] w1 hT1 (ix2 k' j) = w1 (ix2 j k') :=
    fun k' j => transpose_ix2_apply w1 hT1 k' j
  have e2 : ∀ (j : Fin 16) (c : Fin 256), transpose S16x256 [1, 0] w2 hT2 (ix2 j c) = w2 (ix2 c j) :=
    fun j c => transpose_ix2_apply w2 hT2 j c
  refine (LibRank4.shapeCast_abn_abcd_apply _ hr' rfl N k h w (⟨h.val * 16 + w.val, LibRank4.merged_lt h w⟩ : Fin 256) rfl).trans ?_
  rw [SeSpec.out_ix4, outFlat_ix3]
  unfold entryFlat SeSpec.entry SeSpec.pooled
  simp only [ex, hsum, e1, e2, shapeCast_a_1a_apply, SeSpec.mul_inv256_eq_div]

end Cert.ReferenceIdeal.SeValue

end
-- ==== Proof.ReferenceArray.lean ====
/-
  From blocks to the array, in the reference's flat layout. The grid has four points; point `t` reads images
  `32 t … 32 t + 31` of the flat input, reads the four small arrays whole, and writes back the same 32 images of the
  result. The blocks tile the result's first axis, so after the run the result array is the flat-layout function
  `outFlat` of the arrays as the region finds them.
-/
import proofs.«107021_g2000302568016445_pallasbulk_773_13_alg».proof.Proof.Gen.ReferenceIdeal.Frame
import proofs.«107021_g2000302568016445_pallasbulk_773_13_alg».proof.Proof.ReferenceBlock
import Idealize.ShloMosaic.Lib.Pipeline.Value

set_option maxRecDepth 16384

noncomputable section

namespace Cert.ReferenceIdeal.SeValue

open Idealize.ShloMosaic Idealize.ShloMosaic.TcCoe Idealize.ShloMosaic.ValueIdx Idealize.SL.Sem
open Idealize.ShloMosaic.Pipeline (Dat Cfg Window)
open Cert.ReferenceIdeal Cert.ReferenceIdeal.Gen

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: the input and the result move along the first axis with the point, the small arrays
    stay at block zero. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The blocks the body reads -/

/-- The input block at point `t` holds images `32 t + n`. -/
theorem iblk0_apply (c : Dev nD) (t : Fin cfg0.N) (n : Fin 32) (k s : Fin 256) (hb : t.val * 32 + n.val < 128) :
    iblk m c 0 t (ix3 n k s) = V m c main_v4 (ix3 ⟨t.val * 32 + n.val, hb⟩ k s) := by
  obtain ⟨e0, e1, e2, -⟩ := idx_facts t
  show V m c main_v4 (((cfg0.win 0).blk t).view.emb (ix3 n k s)) = _
  refine congrArg _ (funext fun a => Fin.ext ?_)
  match a with
  | ⟨0, _⟩ => show win0_0.index t (0 : Fin 3) * 32 + 1 * n.val = t.val * 32 + n.val; omega
  | ⟨1, _⟩ => show win0_0.index t (1 : Fin 3) * 256 + 1 * k.val = k.val; omega
  | ⟨2, _⟩ => show win0_0.index t (2 : Fin 3) * 256 + 1 * s.val = s.val; omega

/-- The transposed first weight matrix is read whole at every point. -/
theorem iblk1_eq (c : Dev nD) (t : Fin cfg0.N) : (iblk m c 1 t : S256x16.Idx → EReal) = V m c main_v0 := by
  obtain ⟨-, -, -, -, -, -, e0, e1, -⟩ := idx_facts t
  funext y
  show V m c main_v0 (((cfg0.win 1).blk t).view.emb y) = _
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 16 + 1 * (y 1).val = (y 1).val; omega

/-- The first bias row is read whole at every point. -/
theorem iblk2_eq (c : Dev nD) (t : Fin cfg0.N) : (iblk m c 2 t : S1x16.Idx → EReal) = V m c main_v2 := by
  obtain ⟨-, -, -, -, -, -, -, -, e0, e1, -⟩ := idx_facts t
  funext y
  show V m c main_v2 (((cfg0.win 2).blk t).view.emb y) = _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 16 + 1 * (y 1).val = (y 1).val; omega

/-- The transposed second weight matrix is read whole at every point. -/
theorem iblk3_eq (c : Dev nD) (t : Fin cfg0.N) : (iblk m c 3 t : S16x256.Idx → EReal) = V m c main_v1 := by
  obtain ⟨-, -, -, -, -, -, -, -, -, -, e0, e1, -⟩ := idx_facts t
  funext y
  show V m c main_v1 (((cfg0.win 3).blk t).view.emb y) = _
  refine congrArg _ (funext fun a => Fin.ext ?_)
  match a with
  | ⟨0, _⟩ => show win0_3.index t (0 : Fin 2) * 16 + 1 * (y 0).val = (y 0).val; omega
  | ⟨1, _⟩ => show win0_3.index t (1 : Fin 2) * 256 + 1 * (y 1).val = (y 1).val; omega

/-- The second bias row is read whole at every point. -/
theorem iblk4_eq (c : Dev nD) (t : Fin cfg0.N) : (iblk m c 4 t : S1x256.Idx → EReal) = V m c main_v3 := by
  obtain ⟨-, -, -, -, -, -, -, -, -, -, -, -, e0, e1⟩ := idx_facts t
  funext y
  show V m c main_v3 (((cfg0.win 4).blk t).view.emb y) = _
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-! ## What a point writes back -/

/-- The flat-layout result as a function of the arrays the region finds. -/
abbrev resultFlat (c : Dev nD) : FVec Ideal S128x256x256 .f32 :=
  outFlat (V m c main_v4) (V m c main_v0) (V m c main_v2) (V m c main_v1) (V m c main_v3)

/-- Point `t` writes back block `t` of the flat-layout result. -/
theorem flushed_eq (c : Dev nD) (t : Fin cfg0.N) :
    (dats m 0 c).flushed 5 t = ((cfg0.win 5).blk t).view.read (Elt Ideal) (resultFlat m c) := by
  show (cfg0.win 5).cut (grid0.coords t) ((dats m 0 c).after 5 t) = _
  rw [after0_5]
  unfold out0_5
  rw [View.canon_unit_zero hz3]
  simp only [View.ld_unit_zero (S := S32x256x256) hz3, View.ld_unit_zero (S := S256x16) hz2, View.ld_unit_zero (S := S16x256) hz2,
    View.ld_unit_zero (S := S1x16) hz2, View.ld_unit_zero (S := S1x256) hz2]
  have ht : t.val < 4 := lt_of_lt_of_eq t.isLt N_0
  obtain ⟨-, -, -, e0, e1, e2, -⟩ := idx_facts t
  show (k0_pay1 (iblk m c 0 t) (iblk m c 1 t) (iblk m c 2 t) (iblk m c 3 t) (iblk m c 4 t) : S32x256x256.Idx → EReal)
    = fun y => resultFlat m c (((cfg0.win 5).blk t).view.emb y)
  funext y
  obtain ⟨n, k, s, rfl⟩ : ∃ (n : Fin 32) (k s : Fin 256), y = ix3 n k s := ⟨y 0, y 1, y 2, eq_ix3 y⟩
  have hb : t.val * 32 + n.val < 128 := by have := n.isLt; omega
  have he : ((cfg0.win 5).blk t).view.emb (ix3 n k s) = ix3 (⟨t.val * 32 + n.val, hb⟩ : Fin 128) k s := by
    refine funext fun a => Fin.ext ?_
    match a with
    | ⟨0, _⟩ => show win0_5.index t (0 : Fin 3) * 32 + 1 * n.val = t.val * 32 + n.val; omega
    | ⟨1, _⟩ => show win0_5.index t (1 : Fin 3) * 256 + 1 * k.val = k.val; omega
    | ⟨2, _⟩ => show win0_5.index t (2 : Fin 3) * 256 + 1 * s.val = s.val; omega
  refine (block_entry (iblk m c 0 t) (iblk m c 1 t) (iblk m c 2 t) (iblk m c 3 t) (iblk m c 4 t)
    (V m c main_v4) (V m c main_v0) (V m c main_v2) (V m c main_v1) (V m c main_v3) t.val
    (fun n k s hb => iblk0_apply m c t n k s hb) (iblk1_eq m c t) (iblk2_eq m c t) (iblk3_eq m c t) (iblk4_eq m c t)
    n k s hb).trans ?_
  show _ = resultFlat m c (((cfg0.win 5).blk t).view.emb (ix3 n k s))
  rw [he]
  rfl

/-! ## The cover -/

/-- An index of the result is in point `t`'s block iff each coordinate is in the block's range on its axis. -/
theorem mem_blk (t : Fin cfg0.N) (i : S128x256x256.Idx) :
    i ∈ ((cfg0.win 5).blk t).view.set ↔ ∀ a : Fin 3, win0_5.index t a * S32x256x256.size a ≤ (i a).val
      ∧ (i a).val < win0_5.index t a * S32x256x256.size a + S32x256x256.size a := by
  show i ∈ ((View.whole main_v5).slice (win0_5.rect t)).set ↔ _
  rw [View.set_slice_whole, Rect.mem_set_unit]
  exact Iff.rfl

/-- Image `N` is in the block of point `N / 32`. -/
theorem cover (i : S128x256x256.Idx) :
    ∃ t : Fin cfg0.N, (cfg0.win 5).flush t = true ∧ i ∈ ((cfg0.win 5).blk t).view.set := by
  have hi0 : (i 0).val < 128 := (i 0).isLt
  have hi1 : (i 1).val < 256 := (i 1).isLt
  have hi2 : (i 2).val < 256 := (i 2).isLt
  obtain ⟨t, ht⟩ : ∃ t : Fin cfg0.N, t.val = (i 0).val / 32 :=
    ⟨⟨(i 0).val / 32, by rw [show cfg0.N = 4 from N_0]; omega⟩, rfl⟩
  obtain ⟨-, -, -, e0, e1, e2, -⟩ := idx_facts t
  refine ⟨t, flush0_5 t, ?_⟩
  rw [mem_blk]
  intro a
  match a with
  | ⟨0, _⟩ => show win0_5.index t (0 : Fin 3) * 32 ≤ (i 0).val ∧ (i 0).val < win0_5.index t (0 : Fin 3) * 32 + 32; omega
  | ⟨1, _⟩ => show win0_5.index t (1 : Fin 3) * 256 ≤ (i 1).val ∧ (i 1).val < win0_5.index t (1 : Fin 3) * 256 + 256; omega
  | ⟨2, _⟩ => show win0_5.index t (2 : Fin 3) * 256 ≤ (i 2).val ∧ (i 2).val < win0_5.index t (2 : Fin 3) * 256 + 256; omega

/-- The result array of the region after the run: the flat-layout result. -/
theorem final (c : Dev nD) : (dats m 0 c).arrAt 5 cfg0.N = resultFlat m c :=
  (dats m 0 c).arrAt_eq_of_cover 5 (resultFlat m c) (fun t _ => flushed_eq m c t) (cover)

end Cert.ReferenceIdeal.SeValue

end
-- ==== Proof.ReferenceRun.lean ====
/-
  The reference's whole run, read as a value. Before the region the host transposes both weight matrices, gives each bias
  a leading unit axis and merges each image's rows and columns into one flat axis; the region leaves the flat-layout
  result; after it the host splits the flat axis again. Read at an entry, the three steps compose to the specification's
  result of the five argument arrays, which the run leaves unchanged.
-/
import proofs.«107021_g2000302568016445_pallasbulk_773_13_alg».proof.Proof.Gen.ReferenceIdeal.Frame
import proofs.«107021_g2000302568016445_pallasbulk_773_13_alg».proof.Proof.ReferenceArray
import Idealize.ShloMosaic.Lib.StableHlo.Run

set_option maxRecDepth 16384

noncomputable section

namespace Cert.ReferenceIdeal.SeValue

open Idealize.ShloMosaic Idealize.ShloMosaic.TcCoe Idealize.ShloMosaic.ValueIdx Idealize.SL.Sem
open Idealize.ShloMosaic.Pipeline (Dat Cfg Window)
open Idealize.ShloMosaic.StableHlo
open Cert.ReferenceIdeal Cert.ReferenceIdeal.Gen

variable (m : (ℓ : Loc nD τ sig) → Buf (Elt Ideal) ℓ) (ρ : Dev nD → PrngReg)

/-! ## What the region finds -/

/-- The first weight matrix transposed. -/
theorem V_v0 (c : Dev nD) : (V m c main_v0 : S256x16.Idx → EReal)
    = transpose S256x16 [1, 0] (m ((c : Thread nD τ).loc main_arg1)) transposes_S16x256_S256x16_1_0 := by
  show StableHlo.after hostOps0 (fun b => m (c, b)) (Proc.devRef .tc main_v0) = _
  after_results

/-- The second weight matrix transposed. -/
theorem V_v1 (c : Dev nD) : (V m c main_v1 : S16x256.Idx → EReal)
    = transpose S16x256 [1, 0] (m ((c : Thread nD τ).loc main_arg3)) transposes_S256x16_S16x256_1_0 := by
  show StableHlo.after hostOps0 (fun b => m (c, b)) (Proc.devRef .tc main_v1) = _
  after_results

/-- The first bias as one row. -/
theorem V_v2 (c : Dev nD) : (V m c main_v2 : S1x16.Idx → EReal)
    = shapeCast S1x16 (m ((c : Thread nD τ).loc main_arg2)) shapeCasts_S16_S1x16 := by
  show StableHlo.after hostOps0 (fun b => m (c, b)) (Proc.devRef .tc main_v2) = _
  after_results; rfl

/-- The second bias as one row. -/
theorem V_v3 (c : Dev nD) : (V m c main_v3 : S1x256.Idx → EReal)
    = shapeCast S1x256 (m ((c : Thread nD τ).loc main_arg4)) shapeCasts_S256_S1x256 := by
  show StableHlo.after hostOps0 (fun b => m (c, b)) (Proc.devRef .tc main_v3) = _
  after_results; rfl

/-- The input with each image's rows and columns merged into one axis. -/
theorem V_v4 (c : Dev nD) : (V m c main_v4 : S128x256x256.Idx → EReal)
    = shapeCast S128x256x256 (m ((c : Thread nD τ).loc main_arg0)) shapeCasts_S128x256x16x16_S128x256x256 := by
  show StableHlo.after hostOps0 (fun b => m (c, b)) (Proc.devRef .tc main_v4) = _
  after_results; rfl

/-! ## The result -/

/-- The program's result buffer after the host's last line: the specification's result of the argument arrays. -/
theorem tail_eq (c : Dev nD) :
    Pipeline.afterTail₀ cfgs (dats m) 0 (V0 m) [hostOps1] c main_v6
      = SeSpec.out (m ((c : Thread nD τ).loc main_arg0)) (m ((c : Thread nD τ).loc main_arg1))
          (m ((c : Thread nD τ).loc main_arg2)) (m ((c : Thread nD τ).loc main_arg3)) (m ((c : Thread nD τ).loc main_arg4)) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = resultFlat m c :=
    (Pipeline.withArrays_arr spec0 launch0.win.arr_inj c _ _ 5).trans (final m c)
  refine (congrArg (fun A : S128x256x256.Idx → EReal =>
    shapeCast S128x256x16x16 A shapeCasts_S128x256x256_S128x256x16x16) hw).trans ?_
  unfold resultFlat
  rw [V_v0, V_v1, V_v2, V_v3, V_v4]
  exact flat_eq _ _ _ _ _ _ _ _ _ _ _

/-- Every weakly fair execution of the reference's program terminates with the result buffer at the specification's
    result of the argument arrays and those arrays unchanged. -/
theorem run : θ_run defs (onTc (τ := τ) (main (F := Ideal))) ⟨m, fun _ => 0, ρ⟩ (fun r => ∀ c : Dev nD,
      r.2.mem ((c.tc : Thread nD τ).loc main_v6)
        = SeSpec.out (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.ReferenceIdeal.SeValue

end
-- ==== Proof.lean ====
/-
  A squeeze-and-excitation block on `x[N, c, h, w]`, `128 × 256 × 16 × 16`: each image's channels are pooled over the
  `16 × 16` positions, the pooled row goes through two dense layers (the first clamped at zero) and the logistic function,
  and every entry is multiplied by the gate of its image and channel.

  Both programs compute this in one pass over four groups of 32 images, in different layouts. The kernel carries the
  channel axis last, sums an image's rows and then its columns, and multiplies the sum by `2⁻⁸`; the reference merges rows
  and columns into one axis of 256, sums along it, and divides by `256`. A finite sum of extended reals does not depend on
  its order, and the product with `2⁻⁸` is the quotient by `256` on every extended real, so both results are one function
  of the five argument arrays (`SeSpec.out`); no input need be finite. Both first dense layers read the same weight
  `w1[j, k]`, the kernel by contracting against the matrix's rows, the reference through its transpose.

  Each program's value is read off its run: the host lines before the region (transposes and reshapes), the region's
  result array as one function of what it finds (the blocks tile the image axis, and an image's gate is computed from that
  image's own block), and the host line after it. The idealization rewrote no operation, so that claim is trivial.
-/
import proofs.«107021_g2000302568016445_pallasbulk_773_13_alg».proof.Defs
import proofs.«107021_g2000302568016445_pallasbulk_773_13_alg».proof.Proof.Gen.Kernel
import proofs.«107021_g2000302568016445_pallasbulk_773_13_alg».proof.Proof.Gen.Kernel.Frame
import proofs.«107021_g2000302568016445_pallasbulk_773_13_alg».proof.Proof.Gen.KernelIdeal
import proofs.«107021_g2000302568016445_pallasbulk_773_13_alg».proof.Proof.Gen.KernelIdeal.Frame
import proofs.«107021_g2000302568016445_pallasbulk_773_13_alg».proof.Proof.Gen.ReferenceIdeal
import proofs.«107021_g2000302568016445_pallasbulk_773_13_alg».proof.Proof.Gen.ReferenceIdeal.Frame
import proofs.«107021_g2000302568016445_pallasbulk_773_13_alg».proof.Proof.Gen.Pre_finite_inputs
import proofs.«107021_g2000302568016445_pallasbulk_773_13_alg».proof.Proof.KernelRun
import proofs.«107021_g2000302568016445_pallasbulk_773_13_alg».proof.Proof.ReferenceRun
import Idealize.ShloMosaic.Adequacy
import Idealize.ShloMosaic.Init

noncomputable section

namespace Cert.Proof

open Idealize.ShloMosaic Idealize.ShloMosaic.TcCoe Idealize.SL.Sem

/-- The three programs run, fault nowhere and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- No operation was rewritten. -/
theorem preserves : Cert.preserves_Kernel_KernelIdeal := trivial

/-- From memories that agree on the five arguments both programs end with the result buffer at `SeSpec.out` of those
    arguments. -/
theorem algebraic : Cert.algebraic_KernelIdeal_ReferenceIdeal := by
  intro m ρ m' ρ' _ hagree
  refine ⟨fun c => SeSpec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.SeValue.run m ρ, ?_⟩
  refine (θ_run Cert.ReferenceIdeal.defs _ _).mono (fun _ h c => ⟨(h c).1.trans ?_, (h c).2⟩)
    (Cert.ReferenceIdeal.SeValue.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
